-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x128x25 : Shape := ⟨4, ![64, 256, 128, 25]⟩
abbrev S25x25 : Shape := ⟨2, ![25, 25]⟩
abbrev S64x25 : Shape := ⟨2, ![64, 25]⟩
abbrev S64x128 : Shape := ⟨2, ![64, 128]⟩
abbrev S64x1x128 : Shape := ⟨3, ![64, 1, 128]⟩
abbrev S8x256 : Shape := ⟨2, ![8, 256]⟩
abbrev S8 : Shape := ⟨1, ![8]⟩
abbrev S256x8 : Shape := ⟨2, ![256, 8]⟩
abbrev S256 : Shape := ⟨1, ![256]⟩
abbrev S_ : Shape := ⟨0, ![]⟩

class Facts : Prop where
  bcast_S_S64x256x128x25 : S_.BroadcastsInDim S64x256x128x25 (![] : Fin 0 → Fin S64x256x128x25.rank)
  reducesTo_S64x256x128x25_S_d0_1_2_3 : S64x256x128x25.ReducesTo [0, 1, 2, 3] S_
  h_S_ : 0 < S_.numel
  bcast_S_S25x25 : S_.BroadcastsInDim S25x25 (![] : Fin 0 → Fin S25x25.rank)
  reducesTo_S25x25_S_d0_1 : S25x25.ReducesTo [0, 1] S_
  bcast_S_S64x25 : S_.BroadcastsInDim S64x25 (![] : Fin 0 → Fin S64x25.rank)
  reducesTo_S64x25_S_d0_1 : S64x25.ReducesTo [0, 1] S_
  bcast_S_S64x128 : S_.BroadcastsInDim S64x128 (![] : Fin 0 → Fin S64x128.rank)
  reducesTo_S64x128_S_d0_1 : S64x128.ReducesTo [0, 1] S_
  bcast_S_S64x1x128 : S_.BroadcastsInDim S64x1x128 (![] : Fin 0 → Fin S64x1x128.rank)
  reducesTo_S64x1x128_S_d0_1_2 : S64x1x128.ReducesTo [0, 1, 2] S_
  bcast_S_S8x256 : S_.BroadcastsInDim S8x256 (![] : Fin 0 → Fin S8x256.rank)
  reducesTo_S8x256_S_d0_1 : S8x256.ReducesTo [0, 1] S_
  bcast_S_S8 : S_.BroadcastsInDim S8 (![] : Fin 0 → Fin S8.rank)
  reducesTo_S8_S_d0 : S8.ReducesTo [0] S_
  bcast_S_S256x8 : S_.BroadcastsInDim S256x8 (![] : Fin 0 → Fin S256x8.rank)
  reducesTo_S256x8_S_d0_1 : S256x8.ReducesTo [0, 1] S_
  bcast_S_S256 : S_.BroadcastsInDim S256 (![] : Fin 0 → Fin S256.rank)
  reducesTo_S256_S_d0 : S256.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S256 .f32) (main_arg12 : FVec F S256x8 .f32) (main_arg13 : FVec F S256 .f32) (main_v48 : IVec S_ 1) (main_v49 : FVec F S256x8 .f32) (main_v50 : FVec F S256x8 .f32) : IVec S_ 1 :=
  let main_v51 : IVec S256x8 1 := cmpf .olt main_v49 main_v50
  let main_c_19 : IVec S_ 1 := constantI S_ 1 1#1
  let main_v52 : IVec S_ 1 := (fun x v => Host.reduce IntOp.andi x v reducesTo_S256x8_S_d0_1 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x8 .f32 := Host.absf main_arg12
  let main_cst_22 : FVec F S_ .f32 := constant S_ .f32 0x7F800000#32
  let main_v60 : FVec F S256x8 .f32 := broadcastInDim S256x8 ![] bcast_S_S256x8 main_cst_22
  let main_v61 : IVec S256x8 1 := cmpf .olt main_v59 main_v60
  let main_c_23 : IVec S_ 1 := constantI S_ 1 1#1
  let main_v62 : IVec S_ 1 := (fun x v => Host.reduce IntOp.andi x v reducesTo_S256x8_S_d0_1 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_v63 main_v67

def fn_part2 {F : FTy → Type} [FloatOps F] (main_arg7 : FVec F S8 .f32) (main_arg8 : FVec F S8 .f32) (main_arg9 : FVec F S8 .f32) (main_arg10 : FVec F S256x8 .f32) (main_arg11 : FVec F S256 .f32) (main_arg12 : FVec F S256x8 .f32) (main_arg13 : FVec F S256 .f32) (main_v33 : IVec S_ 1) : IVec S_ 1 :=
  let main_v34 : FVec F S8 .f32 := Host.absf main_arg7
  let main_cst_12 : FVec F S_ .f32 := constant S_ .f32 0x7F800000#32
  let main_v35 : FVec F S8 .f32 := broadcastInDim S8 ![] bcast_S_S8 main_cst_12
  let main_v36 : IVec S8 1 := cmpf .olt main_v34 main_v35
  let main_c_13 : IVec S_ 1 := constantI S_ 1 1#1
  let main_v37 : IVec S_ 1 := (fun x v => Host.reduce IntOp.andi x v reducesTo_S8_S_d0 h_S_) main_v36 main_c_13
  let main_v38 : IVec S_ 1 := andi main_v33 main_v37
  let main_v39 : FVec F S8 .f32 := Host.absf main_arg8
  let main_cst_14 : FVec F S_ .f32 := constant S_ .f32 0x7F800000#32
  let main_v40 : FVec F S8 .f32 := broadcastInDim S8 ![] bcast_S_S8 main_cst_14
  let main_v41 : IVec S8 1 := cmpf .olt main_v39 main_v40
  let main_c_15 : IVec S_ 1 := constantI S_ 1 1#1
  let main_v42 : IVec S_ 1 := (fun x v => Host.reduce IntOp.andi x v reducesTo_S8_S_d0 h_S_) main_v41 main_c_15
  let main_v43 : IVec S_ 1 := andi main_v38 main_v42
  let main_v44 : FVec F S8 .f32 := Host.absf main_arg9
  let main_cst_16 : FVec F S_ .f32 := constant S_ .f32 0x7F800000#32
  let main_v45 : FVec F S8 .f32 := broadcastInDim S8 ![] bcast_S_S8 main_cst_16
  let main_v46 : IVec S8 1 := cmpf .olt main_v44 main_v45
  let main_c_17 : IVec S_ 1 := constantI S_ 1 1#1
  let main_v47 : IVec S_ 1 := (fun x v => Host.reduce IntOp.andi x v reducesTo_S8_S_d0 h_S_) main_v46 main_c_17
  let main_v48 : IVec S_ 1 := andi main_v43 main_v47
  let main_v49 : FVec F S256x8 .f32 := Host.absf main_arg10
  let main_cst_18 : FVec F S_ .f32 := constant S_ .f32 0x7F800000#32
  let main_v50 : FVec F S256x8 .f32 := broadcastInDim S256x8 ![] bcast_S_S256x8 main_cst_18
  fn_part3 (F := F) main_arg11 main_arg12 main_arg13 main_v48 main_v49 main_v50

def fn_part1 {F : FTy → Type} [FloatOps F] (main_arg4 : FVec F S64x25 .f32) (main_arg5 : FVec F S64x1x128 .f32) (main_arg6 : FVec F S8x256 .f32) (main_arg7 : FVec F S8 .f32) (main_arg8 : FVec F S8 .f32) (main_arg9 : FVec F S8 .f32) (main_arg10 : FVec F S256x8 .f32) (main_arg11 : FVec F S256 .f32) (main_arg12 : FVec F S256x8 .f32) (main_arg13 : FVec F S256 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S64x25 .f32 := Host.absf main_arg4
  let main_cst_6 : FVec F S_ .f32 := constant S_ .f32 0x7F800000#32
  let main_v20 : FVec F S64x25 .f32 := broadcastInDim S64x25 ![] bcast_S_S64x25 main_cst_6
  let main_v21 : IVec S64x25 1 := cmpf .olt main_v19 main_v20
  let main_c_7 : IVec S_ 1 := constantI S_ 1 1#1
  let main_v22 : IVec S_ 1 := (fun x v => Host.reduce IntOp.andi x v reducesTo_S64x25_S_d0_1 h_S_) main_v21 main_c_7
  let main_v23 : IVec S_ 1 := andi main_v18 main_v22
  let main_v24 : FVec F S64x1x128 .f32 := Host.absf main_arg5
  let main_cst_8 : FVec F S_ .f32 := constant S_ .f32 0x7F800000#32
  let main_v25 : FVec F S64x1x128 .f32 := broadcastInDim S64x1x128 ![] bcast_S_S64x1x128 main_cst_8
  let main_v26 : IVec S64x1x128 1 := cmpf .olt main_v24 main_v25
  let main_c_9 : IVec S_ 1 := constantI S_ 1 1#1
  let main_v27 : IVec S_ 1 := (fun x v => Host.reduce IntOp.andi x v reducesTo_S64x1x128_S_d0_1_2 h_S_) main_v26 main_c_9
  let main_v28 : IVec S_ 1 := andi main_v23 main_v27
  let main_v29 : FVec F S8x256 .f32 := Host.absf main_arg6
  let main_cst_10 : FVec F S_ .f32 := constant S_ .f32 0x7F800000#32
  let main_v30 : FVec F S8x256 .f32 := broadcastInDim S8x256 ![] bcast_S_S8x256 main_cst_10
  let main_v31 : IVec S8x256 1 := cmpf .olt main_v29 main_v30
  let main_c_11 : IVec S_ 1 := constantI S_ 1 1#1
  let main_v32 : IVec S_ 1 := (fun x v => Host.reduce IntOp.andi x v reducesTo_S8x256_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S64x256x128x25 .f32) (main_arg1 : FVec F S25x25 .f32) (main_arg2 : FVec F S64x25 .f32) (main_arg3 : FVec F S64x128 .f32) (main_arg4 : FVec F S64x25 .f32) (main_arg5 : FVec F S64x1x128 .f32) (main_arg6 : FVec F S8x256 .f32) (main_arg7 : FVec F S8 .f32) (main_arg8 : FVec F S8 .f32) (main_arg9 : FVec F S8 .f32) (main_arg10 : FVec F S256x8 .f32) (main_arg11 : FVec F S256 .f32) (main_arg12 : FVec F S256x8 .f32) (main_arg13 : FVec F S256 .f32) : IVec S_ 1 :=
  let main_v0 : FVec F S64x256x128x25 .f32 := Host.absf main_arg0
  let main_cst : FVec F S_ .f32 := constant S_ .f32 0x7F800000#32
  let main_v1 : FVec F S64x256x128x25 .f32 := broadcastInDim S64x256x128x25 ![] bcast_S_S64x256x128x25 main_cst
  let main_v2 : IVec S64x256x128x25 1 := cmpf .olt main_v0 main_v1
  let main_c : IVec S_ 1 := constantI S_ 1 1#1
  let main_v3 : IVec S_ 1 := (fun x v => Host.reduce IntOp.andi x v reducesTo_S64x256x128x25_S_d0_1_2_3 h_S_) main_v2 main_c
  let main_v4 : FVec F S25x25 .f32 := Host.absf main_arg1
  let main_cst_0 : FVec F S_ .f32 := constant S_ .f32 0x7F800000#32
  let main_v5 : FVec F S25x25 .f32 := broadcastInDim S25x25 ![] bcast_S_S25x25 main_cst_0
  let main_v6 : IVec S25x25 1 := cmpf .olt main_v4 main_v5
  let main_c_1 : IVec S_ 1 := constantI S_ 1 1#1
  let main_v7 : IVec S_ 1 := (fun x v => Host.reduce IntOp.andi x v reducesTo_S25x25_S_d0_1 h_S_) main_v6 main_c_1
  let main_v8 : IVec S_ 1 := andi main_v3 main_v7
  let main_v9 : FVec F S64x25 .f32 := Host.absf main_arg2
  let main_cst_2 : FVec F S_ .f32 := constant S_ .f32 0x7F800000#32
  let main_v10 : FVec F S64x25 .f32 := broadcastInDim S64x25 ![] bcast_S_S64x25 main_cst_2
  let main_v11 : IVec S64x25 1 := cmpf .olt main_v9 main_v10
  let main_c_3 : IVec S_ 1 := constantI S_ 1 1#1
  let main_v12 : IVec S_ 1 := (fun x v => Host.reduce IntOp.andi x v reducesTo_S64x25_S_d0_1 h_S_) main_v11 main_c_3
  let main_v13 : IVec S_ 1 := andi main_v8 main_v12
  let main_v14 : FVec F S64x128 .f32 := Host.absf main_arg3
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg4 main_arg5 main_arg6 main_arg7 main_arg8 main_arg9 main_arg10 main_arg11 main_arg12 main_arg13 main_v13 main_v16
-- ==== Kernel.lean ====
abbrev S64x256x128x25 : Shape := ⟨4, ![64, 256, 128, 25]⟩
abbrev S25x25 : Shape := ⟨2, ![25, 25]⟩
abbrev S64x25 : Shape := ⟨2, ![64, 25]⟩
abbrev S64x128 : Shape := ⟨2, ![64, 128]⟩
abbrev S64x1x128 : Shape := ⟨3, ![64, 1, 128]⟩
abbrev S8x256 : Shape := ⟨2, ![8, 256]⟩
abbrev S8 : Shape := ⟨1, ![8]⟩
abbrev S256x8 : Shape := ⟨2, ![256, 8]⟩
abbrev S256 : Shape := ⟨1, ![256]⟩
abbrev S_ : Shape := ⟨0, ![]⟩
abbrev S8x8x128x25 : Shape := ⟨4, ![8, 8, 128, 25]⟩
abbrev S8x25 : Shape := ⟨2, ![8, 25]⟩
abbrev S8x128 : Shape := ⟨2, ![8, 128]⟩
abbrev S8x1x1x25 : Shape := ⟨4, ![8, 1, 1, 25]⟩
abbrev S8x1x128x1 : Shape := ⟨4, ![8, 1, 128, 1]⟩

abbrev nBuf : Space → Nat
  | .hbm => 79
  | .vmem => 8
  | .smem => 0
  | _ => 0

abbrev bufTy : (tb : Table) → Fin (tcTables nBuf tb) → BufTy
  | .hbm, ⟨0, _⟩ => ⟨S64x256x128x25, .f32⟩
  | .hbm, ⟨1, _⟩ => ⟨S25x25, .f32⟩
  | .hbm, ⟨2, _⟩ => ⟨S64x25, .f32⟩
  | .hbm, ⟨3, _⟩ => ⟨S64x128, .f32⟩
  | .hbm, ⟨4, _⟩ => ⟨S64x25, .f32⟩
  | .hbm, ⟨5, _⟩ => ⟨S64x1x128, .f32⟩
  | .hbm, ⟨6, _⟩ => ⟨S8x256, .f32⟩
  | .hbm, ⟨7, _⟩ => ⟨S8, .f32⟩
  | .hbm, ⟨8, _⟩ => ⟨S8, .f32⟩
  | .hbm, ⟨9, _⟩ => ⟨S8, .f32⟩
  | .hbm, ⟨10, _⟩ => ⟨S256x8, .f32⟩
  | .hbm, ⟨11, _⟩ => ⟨S256, .f32⟩
  | .hbm, ⟨12, _⟩ => ⟨S256x8, .f32⟩
  | .hbm, ⟨13, _⟩ => ⟨S256, .f32⟩
  | .hbm, ⟨14, _⟩ => ⟨S_, .f32⟩
  | .hbm, ⟨15, _⟩ => ⟨S_, .f32⟩
  | .hbm, ⟨16, _⟩ => ⟨S64x25, .f32⟩
  | .hbm, ⟨17, _⟩ => ⟨S64x25, .f32⟩
  | .hbm, ⟨18, _⟩ => ⟨S_, .f32⟩
  | .hbm, ⟨19, _⟩ => ⟨S64x25, .f32⟩
  | .hbm, ⟨20, _⟩ => ⟨S64x25, .f32⟩
  | .hbm, ⟨21, _⟩ => ⟨S_, .f32⟩
  | .hbm, ⟨22, _⟩ => ⟨S64x25, .f32⟩
  | .hbm, ⟨23, _⟩ => ⟨S64x25, .f32⟩
  | .hbm, ⟨24, _⟩ => ⟨S_, .f32⟩
  | .hbm, ⟨25, _⟩ => ⟨S64x25, .f32⟩
  | .hbm, ⟨26, _⟩ => ⟨S64x25, .f32⟩
  | .hbm, ⟨27, _⟩ => ⟨S64x25, .i1⟩
  | .hbm, ⟨28, _⟩ => ⟨S64x25, .f32⟩
  | .hbm, ⟨29, _⟩ => ⟨S64x25, .f32⟩
  | .hbm, ⟨30, _⟩ => ⟨S_, .f32⟩
  | .hbm, ⟨31, _⟩ => ⟨S64x25, .f32⟩
  | .hbm, ⟨32, _⟩ => ⟨S64x25, .i1⟩
  | .hbm, ⟨33, _⟩ => ⟨S64x25, .f32⟩
  | .hbm, ⟨34, _⟩ => ⟨S_, .f32⟩
  | .hbm, ⟨35, _⟩ => ⟨S64x25, .f32⟩
  | .hbm, ⟨36, _⟩ => ⟨S64x25, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S64x25, .f32⟩
  | .hbm, ⟨44, _⟩ => ⟨S64x25, .f32⟩
  | .hbm, ⟨45, _⟩ => ⟨S_, .f32⟩
  | .hbm, ⟨46, _⟩ => ⟨S_, .f32⟩
  | .hbm, ⟨47, _⟩ => ⟨S64x128, .f32⟩
  | .hbm, ⟨48, _⟩ => ⟨S64x128, .f32⟩
  | .hbm, ⟨49, _⟩ => ⟨S_, .f32⟩
  | .hbm, ⟨50, _⟩ => ⟨S64x128, .f32⟩
  | .hbm, ⟨51, _⟩ => ⟨S64x128, .f32⟩
  | .hbm, ⟨52, _⟩ => ⟨S64x1x128, .f32⟩
  | .hbm, ⟨53, _⟩ => ⟨S_, .f32⟩
  | .hbm, ⟨54, _⟩ => ⟨S64x1x128, .f32⟩
  | .hbm, ⟨55, _⟩ => ⟨S64x1x128, .f32⟩
  | .hbm, ⟨56, _⟩ => ⟨S_, .f32⟩
  | .hbm, ⟨57, _⟩ => ⟨S64x1x128, .f32⟩
  | .hbm, ⟨58, _⟩ => ⟨S64x1x128, .f32⟩
  | .hbm, ⟨59, _⟩ => ⟨S64x1x128, .i1⟩
  | .hbm, ⟨60, _⟩ => ⟨S64x1x128, .f32⟩
  | .hbm, ⟨61, _⟩ => ⟨S_, .f32⟩
  | .hbm, ⟨62, _⟩ => ⟨S_, .f32⟩
  | .hbm, ⟨63, _⟩ => ⟨S64x1x128, .f32⟩
  | .hbm, ⟨64, _⟩ => ⟨S_, .f32⟩
  | .hbm, ⟨65, _⟩ => ⟨S64x1x128, .f32⟩
  | .hbm, ⟨66, _⟩ => ⟨S64x1x128, .f32⟩
  | .hbm, ⟨67, _⟩ => ⟨S64x128, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S64x128, .f32⟩
  | .hbm, ⟨77, _⟩ => ⟨S64x128, .f32⟩
  | .hbm, ⟨78, _⟩ => ⟨S64x256x128x25, .f32⟩
  | .local _ .vmem, ⟨0, _⟩ => ⟨S8x8x128x25, .f32⟩
  | .local _ .vmem, ⟨1, _⟩ => ⟨S8x8x128x25, .f32⟩
  | .local _ .vmem, ⟨2, _⟩ => ⟨S8x25, .f32⟩
  | .local _ .vmem, ⟨3, _⟩ => ⟨S8x25, .f32⟩
  | .local _ .vmem, ⟨4, _⟩ => ⟨S8x128, .f32⟩
  | .local _ .vmem, ⟨5, _⟩ => ⟨S8x128, .f32⟩
  | .local _ .vmem, ⟨6, _⟩ => ⟨S8x8x128x25, .f32⟩
  | .local _ .vmem, ⟨7, _⟩ => ⟨S8x8x128x25, .f32⟩
  | _, _ => ⟨S64x256x128x25, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_cst_2 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_3 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_4 : Ref sig .tc := ⟨.hbm, 34, rfl⟩
abbrev main_v15 : Ref sig .tc := ⟨.hbm, 35, rfl⟩
abbrev main_v16 : Ref sig .tc := ⟨.hbm, 36, rfl⟩
abbrev main_cst_5 : Ref sig .tc := ⟨.hbm, 37, rfl⟩
abbrev main_v17 : Ref sig .tc := ⟨.hbm, 38, rfl⟩
abbrev main_cst_6 : Ref sig .tc := ⟨.hbm, 39, rfl⟩
abbrev main_v18 : Ref sig .tc := ⟨.hbm, 40, rfl⟩
abbrev main_cst_7 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst_8 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_9 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst_10 : Ref sig .tc := ⟨.hbm, 53, rfl⟩
abbrev main_v28 : Ref sig .tc := ⟨.hbm, 54, rfl⟩
abbrev main_v29 : Ref sig .tc := ⟨.hbm, 55, rfl⟩
abbrev main_cst_11 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_12 : Ref sig .tc := ⟨.hbm, 61, rfl⟩
abbrev main_v34 : Ref sig .tc := ⟨.hbm, 62, rfl⟩
abbrev main_v35 : Ref sig .tc := ⟨.hbm, 63, rfl⟩
abbrev main_cst_13 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_cst_14 : Ref sig .tc := ⟨.hbm, 68, rfl⟩
abbrev main_v39 : Ref sig .tc := ⟨.hbm, 69, rfl⟩
abbrev main_cst_15 : Ref sig .tc := ⟨.hbm, 70, rfl⟩
abbrev main_v40 : Ref sig .tc := ⟨.hbm, 71, rfl⟩
abbrev main_cst_16 : Ref sig .tc := ⟨.hbm, 72, rfl⟩
abbrev main_v41 : Ref sig .tc := ⟨.hbm, 73, rfl⟩
abbrev main_cst_17 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 32], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S8x8x128x25 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x25 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x8x128x25 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  reducesTo_S64x25_S_d0_1 : S64x25.ReducesTo [0, 1] S_
  h_S_ : 0 < S_.numel
  bcast_S_S64x25 : S_.BroadcastsInDim S64x25 (![] : Fin 0 → Fin S64x25.rank)
  reducesTo_S64x128_S_d0_1 : S64x128.ReducesTo [0, 1] S_
  bcast_S_S64x128 : S_.BroadcastsInDim S64x128 (![] : Fin 0 → Fin S64x128.rank)
  shapeCasts_S64x128_S64x1x128 : S64x128.ShapeCasts S64x1x128
  bcast_S_S64x1x128 : S_.BroadcastsInDim S64x1x128 (![] : Fin 0 → Fin S64x1x128.rank)
  bcast_S_S_ : S_.BroadcastsInDim S_ (![] : Fin 0 → Fin S_.rank)
  reduceWindows_S64x1x128_S64x1x128_w1s1p0_0_w1s1p0_0_w7s1p3_3 : S64x1x128.ReduceWindows (![1, 1, 7] : Fin 3 → Nat) ![1, 1, 1] ![0, 0, 3] ![0, 0, 3] S64x1x128
  shapeCasts_S64x1x128_S64x128 : S64x1x128.ShapeCasts S64x128
  inb_S8x25_S8x25_0_0 : ∀ a, (![0, 0] : Fin 2 → Nat) a + S8x25.size a ≤ S8x25.size a
  h_S8x25 : 0 < S8x25.numel
  shapeCasts_S8x25_S8x25 : S8x25.ShapeCasts S8x25
  inb_S8x128_S8x128_0_0 : ∀ a, (![0, 0] : Fin 2 → Nat) a + S8x128.size a ≤ S8x128.size a
  h_S8x128 : 0 < S8x128.numel
  shapeCasts_S8x128_S8x128 : S8x128.ShapeCasts S8x128
  shapeCasts_S8x25_S8x1x1x25 : S8x25.ShapeCasts S8x1x1x25
  shapeCasts_S8x128_S8x1x128x1 : S8x128.ShapeCasts S8x1x128x1
  inb_S8x8x128x25_S8x8x128x25_0_0_0_0 : ∀ a, (![0, 0, 0, 0] : Fin 4 → Nat) a + S8x8x128x25.size a ≤ S8x8x128x25.size a
  h_S8x8x128x25 : 0 < S8x8x128x25.numel
  broadcasts_S8x1x1x25_S8x8x128x25 : S8x1x1x25.Broadcasts S8x8x128x25
  broadcasts_S8x1x128x1_S8x8x128x25 : S8x1x128x1.Broadcasts S8x8x128x25
  dot_S64x25_S25x25_S64x25_1_0_0_1_n_n_wf : DotDims.WF S64x25 S25x25 S64x25 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x8x128x25.size a ≤ S64x256x128x25.size a
  hwx0_0 : ∀ i : grid0.Coords, EltTy.bits .f32 = 32 ∨ (Rect.block (s := S64x256x128x25) S8x8x128x25.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x25.size a ≤ S64x25.size a
  hwx0_1 : ∀ i : grid0.Coords, EltTy.bits .f32 = 32 ∨ (Rect.block (s := S64x25) S8x25.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S64x128.size a
  hwx0_2 : ∀ i : grid0.Coords, EltTy.bits .f32 = 32 ∨ (Rect.block (s := S64x128) S8x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x8x128x25.size a ≤ S64x256x128x25.size a
  hwx0_3 : ∀ i : grid0.Coords, EltTy.bits .f32 = 32 ∨ (Rect.block (s := S64x256x128x25) S8x8x128x25.size (cc0_transform_3 i) (hinb0_3 i)).WholeWords (EltTy.packing .f32)

variable [Facts₀]

def dot_S64x25_S25x25_S64x25_1_0_0_1_n_n : DotDims S64x25 S25x25 S64x25 where
  lhsContracting := [1]
  rhsContracting := [0]
  lhsNonContracting := [0]
  rhsNonContracting := [1]
  lhsBatch := []
  rhsBatch := []
  wf := dot_S64x25_S25x25_S64x25_1_0_0_1_n_n_wf

abbrev win0_0 : Pipeline.Window sig grid0 :=
  Pipeline.Window.ofSpec (Memref.whole main_arg0) S8x8x128x25.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S8x25.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v44) S8x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v45) S8x8x128x25.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x256x128x25 : Shape := ⟨4, ![64, 256, 128, 25]⟩
abbrev S25x25 : Shape := ⟨2, ![25, 25]⟩
abbrev S64x25 : Shape := ⟨2, ![64, 25]⟩
abbrev S64x128 : Shape := ⟨2, ![64, 128]⟩
abbrev S64x1x128 : Shape := ⟨3, ![64, 1, 128]⟩
abbrev S8x256 : Shape := ⟨2, ![8, 256]⟩
abbrev S8 : Shape := ⟨1, ![8]⟩
abbrev S256x8 : Shape := ⟨2, ![256, 8]⟩
abbrev S256 : Shape := ⟨1, ![256]⟩
abbrev S_ : Shape := ⟨0, ![]⟩
abbrev S64x256x128 : Shape := ⟨3, ![64, 256, 128]⟩
abbrev S64x256x128x1 : Shape := ⟨4, ![64, 256, 128, 1]⟩
abbrev S64x256x25 : Shape := ⟨3, ![64, 256, 25]⟩
abbrev S64x256x1x25 : Shape := ⟨4, ![64, 256, 1, 25]⟩
abbrev S64x256x25x1 : Shape := ⟨4, ![64, 256, 25, 1]⟩
abbrev S64x256x153x1 : Shape := ⟨4, ![64, 256, 153, 1]⟩
abbrev S8x64x153x1 : Shape := ⟨4, ![8, 64, 153, 1]⟩
abbrev S64x8x153x1 : Shape := ⟨4, ![64, 8, 153, 1]⟩
abbrev S1x8x1x1 : Shape := ⟨4, ![1, 8, 1, 1]⟩
abbrev S64x8x128x1 : Shape := ⟨4, ![64, 8, 128, 1]⟩
abbrev S64x8x25x1 : Shape := ⟨4, ![64, 8, 25, 1]⟩
abbrev S64x8x1x25 : Shape := ⟨4, ![64, 8, 1, 25]⟩
abbrev S256x64x128x1 : Shape := ⟨4, ![256, 64, 128, 1]⟩
abbrev S1x256x1x1 : Shape := ⟨4, ![1, 256, 1, 1]⟩
abbrev S256x64x1x25 : Shape := ⟨4, ![256, 64, 1, 25]⟩
abbrev S64x256x1x128 : Shape := ⟨4, ![64, 256, 1, 128]⟩
abbrev S64x1x1x25 : Shape := ⟨4, ![64, 1, 1, 25]⟩
abbrev S64x1x128x1 : Shape := ⟨4, ![64, 1, 128, 1]⟩

abbrev nBuf : Space → Nat
  | .hbm => 188
  | .vmem => 0
  | .smem => 0
  | _ => 0

abbrev hbmTy0_0 (i : Nat) : BufTy := match i % 128 with
  | 0 => ⟨S64x256x128x25, .f32⟩
  | 1 => ⟨S25x25, .f32⟩
  | 2 => ⟨S64x25, .f32⟩
  | 3 => ⟨S64x128, .f32⟩
  | 4 => ⟨S64x25, .f32⟩
  | 5 => ⟨S64x1x128, .f32⟩
  | 6 => ⟨S8x256, .f32⟩
  | 7 => ⟨S8, .f32⟩
  | 8 => ⟨S8, .f32⟩
  | 9 => ⟨S8, .f32⟩
  | 10 => ⟨S256x8, .f32⟩
  | 11 => ⟨S256, .f32⟩
  | 12 => ⟨S256x8, .f32⟩
  | 13 => ⟨S256, .f32⟩
  | 14 => ⟨S_, .f32⟩
  | 15 => ⟨S64x256x128, .f32⟩
  | 16 => ⟨S64x256x128x1, .f32⟩
  | 17 => ⟨S_, .f32⟩
  | 18 => ⟨S64x256x128x1, .f32⟩
  | 19 => ⟨S64x256x128x1, .f32⟩
  | 20 => ⟨S_, .f32⟩
  | 21 => ⟨S64x256x25, .f32⟩
  | 22 => ⟨S64x256x1x25, .f32⟩
  | 23 => ⟨S_, .f32⟩
  | 24 => ⟨S64x256x1x25, .f32⟩
  | 25 => ⟨S64x256x1x25, .f32⟩
  | 26 => ⟨S64x256x25x1, .f32⟩
  | 27 => ⟨S64x256x153x1, .f32⟩
  | 28 => ⟨S8x64x153x1, .f32⟩
  | 29 => ⟨S64x8x153x1, .f32⟩
  | 30 => ⟨S1x8x1x1, .f32⟩
  | 31 => ⟨S64x8x153x1, .f32⟩
  | 32 => ⟨S64x8x153x1, .f32⟩
  | 33 => ⟨S_, .f32⟩
  | 34 => ⟨S8, .f32⟩
  | 35 => ⟨S1x8x1x1, .f32⟩
  | 36 => ⟨S_, .f32⟩
  | 37 => ⟨S1x8x1x1, .f32⟩
  | 38 => ⟨S1x8x1x1, .f32⟩
  | 39 => ⟨S64x8x153x1, .f32⟩
  | 40 => ⟨S64x8x153x1, .f32⟩
  | 41 => ⟨S64x8x153x1, .f32⟩
  | 42 => ⟨S_, .f32⟩
  | 43 => ⟨S8, .f32⟩
  | 44 => ⟨S1x8x1x1, .f32⟩
  | 45 => ⟨S_, .f32⟩
  | 46 => ⟨S1x8x1x1, .f32⟩
  | 47 => ⟨S1x8x1x1, .f32⟩
  | 48 => ⟨S64x8x153x1, .f32⟩
  | 49 => ⟨S64x8x153x1, .f32⟩
  | 50 => ⟨S_, .f32⟩
  | 51 => ⟨S1x8x1x1, .f32⟩
  | 52 => ⟨S1x8x1x1, .f32⟩
  | 53 => ⟨S1x8x1x1, .f32⟩
  | 54 => ⟨S64x8x153x1, .f32⟩
  | 55 => ⟨S64x8x153x1, .f32⟩
  | 56 => ⟨S1x8x1x1, .f32⟩
  | 57 => ⟨S64x8x153x1, .f32⟩
  | 58 => ⟨S64x8x153x1, .f32⟩
  | 59 => ⟨S1x8x1x1, .f32⟩
  | 60 => ⟨S64x8x153x1, .f32⟩
  | 61 => ⟨S64x8x153x1, .f32⟩
  | 62 => ⟨S_, .f32⟩
  | 63 => ⟨S64x8x153x1, .f32⟩
  | 64 => ⟨S64x8x153x1, .f32⟩
  | 65 => ⟨S_, .f32⟩
  | 66 => ⟨S_, .f32⟩
  | 67 => ⟨S_, .f32⟩
  | 68 => ⟨S64x8x153x1, .f32⟩
  | 69 => ⟨S64x8x153x1, .f32⟩
  | 70 => ⟨S_, .f32⟩
  | 71 => ⟨S64x8x153x1, .f32⟩
  | 72 => ⟨S64x8x153x1, .f32⟩
  | 73 => ⟨S64x8x153x1, .f32⟩
  | 74 => ⟨S_, .f32⟩
  | 75 => ⟨S64x8x153x1, .f32⟩
  | 76 => ⟨S64x8x153x1, .f32⟩
  | 77 => ⟨S64x8x128x1, .f32⟩
  | 78 => ⟨S64x8x25x1, .f32⟩
  | 79 => ⟨S64x8x1x25, .f32⟩
  | 80 => ⟨S256x64x128x1, .f32⟩
  | 81 => ⟨S64x256x128x1, .f32⟩
  | 82 => ⟨S1x256x1x1, .f32⟩
  | 83 => ⟨S64x256x128x1, .f32⟩
  | 84 => ⟨S64x256x128x1, .f32⟩
  | 85 => ⟨S64x256x128x1, .f32⟩
  | 86 => ⟨S64x256x128x1, .f32⟩
  | 87 => ⟨S_, .f32⟩
  | 88 => ⟨S64x256x128x1, .f32⟩
  | 89 => ⟨S64x256x128x1, .f32⟩
  | 90 => ⟨S_, .f32⟩
  | 91 => ⟨S64x256x128x1, .f32⟩
  | 92 => ⟨S64x256x128x1, .f32⟩
  | 93 => ⟨S256x64x1x25, .f32⟩
  | 94 => ⟨S64x256x1x25, .f32⟩
  | 95 => ⟨S1x256x1x1, .f32⟩
  | 96 => ⟨S64x256x1x25, .f32⟩
  | 97 => ⟨S64x256x1x25, .f32⟩
  | 98 => ⟨S64x256x1x25, .f32⟩
  | 99 => ⟨S64x256x1x25, .f32⟩
  | 100 => ⟨S_, .f32⟩
  | 101 => ⟨S64x256x1x25, .f32⟩
  | 102 => ⟨S64x256x1x25, .f32⟩
  | 103 => ⟨S_, .f32⟩
  | 104 => ⟨S64x256x1x25, .f32⟩
  | 105 => ⟨S64x256x1x25, .f32⟩
  | 106 => ⟨S_, .f32⟩
  | 107 => ⟨S64x25, .f32⟩
  | 108 => ⟨S_, .f32⟩
  | 109 => ⟨S64x25, .f32⟩
  | 110 => ⟨S64x25, .f32⟩
  | 111 => ⟨S64x256x1x128, .f32⟩
  | 112 => ⟨S_, .f32⟩
  | 113 => ⟨S64x128, .f32⟩
  | 114 => ⟨S_, .f32⟩
  | 115 => ⟨S64x128, .f32⟩
  | 116 => ⟨S64x128, .f32⟩
  | 117 => ⟨S_, .f32⟩
  | 118 => ⟨S_, .f32⟩
  | 119 => ⟨S64x25, .f32⟩
  | 120 => ⟨S64x25, .f32⟩
  | 121 => ⟨S_, .f32⟩
  | 122 => ⟨S64x25, .f32⟩
  | 123 => ⟨S64x25, .f32⟩
  | 124 => ⟨S_, .f32⟩
  | 125 => ⟨S64x25, .f32⟩
  | 126 => ⟨S64x25, .f32⟩
  | 127 => ⟨S_, .f32⟩
  | _ => ⟨S64x256x128x25, .f32⟩

abbrev hbmTy0_1 (i : Nat) : BufTy := match i % 128 with
  | 0 => ⟨S64x25, .f32⟩
  | 1 => ⟨S64x25, .f32⟩
  | 2 => ⟨S64x25, .i1⟩
  | 3 => ⟨S64x25, .f32⟩
  | 4 => ⟨S64x25, .f32⟩
  | 5 => ⟨S_, .f32⟩
  | 6 => ⟨S64x25, .f32⟩
  | 7 => ⟨S64x25, .i1⟩
  | 8 => ⟨S64x25, .f32⟩
  | 9 => ⟨S_, .f32⟩
  | 10 => ⟨S64x25, .f32⟩
  | 11 => ⟨S64x25, .f32⟩
  | 12 => ⟨S64x1x1x25, .f32⟩
  | 13 => ⟨S64x256x128x25, .f32⟩
  | 14 => ⟨S64x256x128x25, .f32⟩
  | 15 => ⟨S_, .f32⟩
  | 16 => ⟨S64x256x128x25, .f32⟩
  | 17 => ⟨S64x256x128x25, .f32⟩
  | 18 => ⟨S_, .f32⟩
  | 19 => ⟨S_, .f32⟩
  | 20 => ⟨S_, .f32⟩
  | 21 => ⟨S_, .f32⟩
  | 22 => ⟨S64x256x128x25, .f32⟩
  | 23 => ⟨S64x256x128x25, .f32⟩
  | 24 => ⟨S_, .f32⟩
  | 25 => ⟨S_, .f32⟩
  | 26 => ⟨S64x128, .f32⟩
  | 27 => ⟨S64x128, .f32⟩
  | 28 => ⟨S_, .f32⟩
  | 29 => ⟨S64x128, .f32⟩
  | 30 => ⟨S64x128, .f32⟩
  | 31 => ⟨S64x1x128, .f32⟩
  | 32 => ⟨S_, .f32⟩
  | 33 => ⟨S64x1x128, .f32⟩
  | 34 => ⟨S64x1x128, .f32⟩
  | 35 => ⟨S_, .f32⟩
  | 36 => ⟨S64x1x128, .f32⟩
  | 37 => ⟨S64x1x128, .f32⟩
  | 38 => ⟨S64x1x128, .i1⟩
  | 39 => ⟨S64x1x128, .f32⟩
  | 40 => ⟨S_, .f32⟩
  | 41 => ⟨S_, .f32⟩
  | 42 => ⟨S64x1x128, .f32⟩
  | 43 => ⟨S_, .f32⟩
  | 44 => ⟨S64x1x128, .f32⟩
  | 45 => ⟨S64x1x128, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S64x1x128x1, .f32⟩
  | 53 => ⟨S64x256x128x25, .f32⟩
  | 54 => ⟨S64x256x128x25, .f32⟩
  | 55 => ⟨S_, .f32⟩
  | 56 => ⟨S64x256x128x25, .f32⟩
  | 57 => ⟨S64x256x128x25, .f32⟩
  | 58 => ⟨S64x256x128x25, .f32⟩
  | 59 => ⟨S64x256x128x25, .f32⟩
  | _ => ⟨S64x256x128x25, .f32⟩

abbrev hbmTy (i : Nat) : BufTy := match i / 128 with
  | 0 => hbmTy0_0 i
  | 1 => hbmTy0_1 i
  | _ => ⟨S64x256x128x25, .f32⟩

abbrev bufTy : (tb : Table) → Fin (tcTables nBuf tb) → BufTy
  | .hbm, ⟨i, _⟩ => hbmTy i
  | _, _ => ⟨S64x256x128x25, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_cst_0 : Ref sig .tc := ⟨.hbm, 17, rfl⟩
abbrev main_v2 : Ref sig .tc := ⟨.hbm, 18, rfl⟩
abbrev main_v3 : Ref sig .tc := ⟨.hbm, 19, rfl⟩
abbrev main_cst_1 : Ref sig .tc := ⟨.hbm, 20, rfl⟩
abbrev main_v4 : Ref sig .tc := ⟨.hbm, 21, rfl⟩
abbrev main_v5 : Ref sig .tc := ⟨.hbm, 22, rfl⟩
abbrev main_cst_2 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_3 : Ref sig .tc := ⟨.hbm, 33, rfl⟩
abbrev main_v15 : Ref sig .tc := ⟨.hbm, 34, rfl⟩
abbrev main_v16 : Ref sig .tc := ⟨.hbm, 35, rfl⟩
abbrev main_cst_4 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_5 : Ref sig .tc := ⟨.hbm, 42, rfl⟩
abbrev main_v22 : Ref sig .tc := ⟨.hbm, 43, rfl⟩
abbrev main_v23 : Ref sig .tc := ⟨.hbm, 44, rfl⟩
abbrev main_cst_6 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_7 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_8 : Ref sig .tc := ⟨.hbm, 62, rfl⟩
abbrev main_v39 : Ref sig .tc := ⟨.hbm, 63, rfl⟩
abbrev main_v40 : Ref sig .tc := ⟨.hbm, 64, rfl⟩
abbrev main_cst_9 : Ref sig .tc := ⟨.hbm, 65, rfl⟩
abbrev main_cst_10 : Ref sig .tc := ⟨.hbm, 66, rfl⟩
abbrev main_call0_v0 : Ref sig .tc := ⟨.hbm, 67, rfl⟩
abbrev main_call0_v1 : Ref sig .tc := ⟨.hbm, 68, rfl⟩
abbrev main_call0_v2 : Ref sig .tc := ⟨.hbm, 69, rfl⟩
abbrev main_call0_v3 : Ref sig .tc := ⟨.hbm, 70, rfl⟩
abbrev main_call0_v4 : Ref sig .tc := ⟨.hbm, 71, rfl⟩
abbrev main_v41 : Ref sig .tc := ⟨.hbm, 72, rfl⟩
abbrev main_v42 : Ref sig .tc := ⟨.hbm, 73, rfl⟩
abbrev main_cst_11 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_cst_12 : Ref sig .tc := ⟨.hbm, 87, rfl⟩
abbrev main_v55 : Ref sig .tc := ⟨.hbm, 88, rfl⟩
abbrev main_v56 : Ref sig .tc := ⟨.hbm, 89, rfl⟩
abbrev main_cst_13 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_cst_14 : Ref sig .tc := ⟨.hbm, 100, rfl⟩
abbrev main_v66 : Ref sig .tc := ⟨.hbm, 101, rfl⟩
abbrev main_v67 : Ref sig .tc := ⟨.hbm, 102, rfl⟩
abbrev main_cst_15 : Ref sig .tc := ⟨.hbm, 103, rfl⟩
abbrev main_v68 : Ref sig .tc := ⟨.hbm, 104, rfl⟩
abbrev main_v69 : Ref sig .tc := ⟨.hbm, 105, rfl⟩
abbrev main_cst_16 : Ref sig .tc := ⟨.hbm, 106, rfl⟩
abbrev main_v70 : Ref sig .tc := ⟨.hbm, 107, rfl⟩
abbrev main_cst_17 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_cst_18 : Ref sig .tc := ⟨.hbm, 112, rfl⟩
abbrev main_v74 : Ref sig .tc := ⟨.hbm, 113, rfl⟩
abbrev main_cst_19 : Ref sig .tc := ⟨.hbm, 114, rfl⟩
abbrev main_v75 : Ref sig .tc := ⟨.hbm, 115, rfl⟩
abbrev main_v76 : Ref sig .tc := ⟨.hbm, 116, rfl⟩
abbrev main_cst_20 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_cst_21 : Ref sig .tc := ⟨.hbm, 121, rfl⟩
abbrev main_v80 : Ref sig .tc := ⟨.hbm, 122, rfl⟩
abbrev main_v81 : Ref sig .tc := ⟨.hbm, 123, rfl⟩
abbrev main_cst_22 : Ref sig .tc := ⟨.hbm, 124, rfl⟩
abbrev main_v82 : Ref sig .tc := ⟨.hbm, 125, rfl⟩
abbrev main_v83 : Ref sig .tc := ⟨.hbm, 126, rfl⟩
abbrev main_cst_23 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_cst_24 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_cst_25 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_cst_26 : Ref sig .tc := ⟨.hbm, 143, rfl⟩
abbrev main_v97 : Ref sig .tc := ⟨.hbm, 144, rfl⟩
abbrev main_v98 : Ref sig .tc := ⟨.hbm, 145, rfl⟩
abbrev main_cst_27 : Ref sig .tc := ⟨.hbm, 146, rfl⟩
abbrev main_v99 : Ref sig .tc := ⟨.hbm, 147, rfl⟩
abbrev main_cst_28 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_cst_29 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_cst_30 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_cst_31 : Ref sig .tc := ⟨.hbm, 160, rfl⟩
abbrev main_v109 : Ref sig .tc := ⟨.hbm, 161, rfl⟩
abbrev main_v110 : Ref sig .tc := ⟨.hbm, 162, rfl⟩
abbrev main_cst_32 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_cst_33 : Ref sig .tc := ⟨.hbm, 168, rfl⟩
abbrev main_v115 : Ref sig .tc := ⟨.hbm, 169, rfl⟩
abbrev main_v116 : Ref sig .tc := ⟨.hbm, 170, rfl⟩
abbrev main_cst_34 : Ref sig .tc := ⟨.hbm, 171, rfl⟩
abbrev main_v117 : Ref sig .tc := ⟨.hbm, 172, rfl⟩
abbrev main_v118 : Ref sig .tc := ⟨.hbm, 173, rfl⟩
abbrev main_cst_35 : Ref sig .tc := ⟨.hbm, 174, rfl⟩
abbrev main_v119 : Ref sig .tc := ⟨.hbm, 175, rfl⟩
abbrev main_cst_36 : Ref sig .tc := ⟨.hbm, 176, rfl⟩
abbrev main_v120 : Ref sig .tc := ⟨.hbm, 177, rfl⟩
abbrev main_cst_37 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_cst_38 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩

abbrev nD : Nat := 1
abbrev τ : Topo := Topo.v7x

variable {F : FTy → Type} [FloatOps F]

class Facts₀ : Prop where
  reducesTo_S64x256x128x25_S64x256x128_d3 : S64x256x128x25.ReducesTo [3] S64x256x128
  h_S_ : 0 < S_.numel
  bcast_S64x256x128_S64x256x128x1_0_1_2 : S64x256x128.BroadcastsInDim S64x256x128x1 (![0, 1, 2] : Fin 3 → Fin S64x256x128x1.rank)
  bcast_S_S64x256x128x1 : S_.BroadcastsInDim S64x256x128x1 (![] : Fin 0 → Fin S64x256x128x1.rank)
  reducesTo_S64x256x128x25_S64x256x25_d2 : S64x256x128x25.ReducesTo [2] S64x256x25
  bcast_S64x256x25_S64x256x1x25_0_1_3 : S64x256x25.BroadcastsInDim S64x256x1x25 (![0, 1, 3] : Fin 3 → Fin S64x256x1x25.rank)
  bcast_S_S64x256x1x25 : S_.BroadcastsInDim S64x256x1x25 (![] : Fin 0 → Fin S64x256x1x25.rank)
  transposes_S64x256x1x25_S64x256x25x1_0_1_3_2 : S64x256x1x25.Transposes [0, 1, 3, 2] S64x256x25x1
  concatenates_S64x256x128x1_S64x256x25x1_S64x256x153x1_d2 : Shape.Concatenates [S64x256x128x1, S64x256x25x1] S64x256x153x1 2
  transposes_S8x64x153x1_S64x8x153x1_1_0_2_3 : S8x64x153x1.Transposes [1, 0, 2, 3] S64x8x153x1
  bcast_S8_S1x8x1x1_1 : S8.BroadcastsInDim S1x8x1x1 (![1] : Fin 1 → Fin S1x8x1x1.rank)
  bcast_S1x8x1x1_S64x8x153x1_0_1_2_3 : S1x8x1x1.BroadcastsInDim S64x8x153x1 (![0, 1, 2, 3] : Fin 4 → Fin S64x8x153x1.rank)
  reducesTo_S64x8x153x1_S8_d0_2_3 : S64x8x153x1.ReducesTo [0, 2, 3] S8
  bcast_S_S1x8x1x1 : S_.BroadcastsInDim S1x8x1x1 (![] : Fin 0 → Fin S1x8x1x1.rank)
  bcast_S_S64x8x153x1 : S_.BroadcastsInDim S64x8x153x1 (![] : Fin 0 → Fin S64x8x153x1.rank)
  slices_S64x8x153x1_S64x8x128x1_0_0_0_0 : S64x8x153x1.Slices ![0, 0, 0, 0] S64x8x128x1
  slices_S64x8x153x1_S64x8x25x1_0_0_128_0 : S64x8x153x1.Slices ![0, 0, 128, 0] S64x8x25x1
  transposes_S64x8x25x1_S64x8x1x25_0_1_3_2 : S64x8x25x1.Transposes [0, 1, 3, 2] S64x8x1x25
  transposes_S256x64x128x1_S64x256x128x1_1_0_2_3 : S256x64x128x1.Transposes [1, 0, 2, 3] S64x256x128x1
  bcast_S256_S1x256x1x1_1 : S256.BroadcastsInDim S1x256x1x1 (![1] : Fin 1 → Fin S1x256x1x1.rank)
  bcast_S1x256x1x1_S64x256x128x1_0_1_2_3 : S1x256x1x1.BroadcastsInDim S64x256x128x1 (![0, 1, 2, 3] : Fin 4 → Fin S64x256x128x1.rank)
  transposes_S256x64x1x25_S64x256x1x25_1_0_2_3 : S256x64x1x25.Transposes [1, 0, 2, 3] S64x256x1x25
  bcast_S1x256x1x1_S64x256x1x25_0_1_2_3 : S1x256x1x1.BroadcastsInDim S64x256x1x25 (![0, 1, 2, 3] : Fin 4 → Fin S64x256x1x25.rank)
  reducesTo_S64x256x1x25_S64x25_d1_2 : S64x256x1x25.ReducesTo [1, 2] S64x25
  bcast_S_S64x25 : S_.BroadcastsInDim S64x25 (![] : Fin 0 → Fin S64x25.rank)
  transposes_S64x256x128x1_S64x256x1x128_0_1_3_2 : S64x256x128x1.Transposes [0, 1, 3, 2] S64x256x1x128
  reducesTo_S64x256x1x128_S64x128_d1_2 : S64x256x1x128.ReducesTo [1, 2] S64x128
  bcast_S_S64x128 : S_.BroadcastsInDim S64x128 (![] : Fin 0 → Fin S64x128.rank)
  reducesTo_S64x25_S_d0_1 : S64x25.ReducesTo [0, 1] S_
  bcast_S64x25_S64x1x1x25_0_3 : S64x25.BroadcastsInDim S64x1x1x25 (![0, 3] : Fin 2 → Fin S64x1x1x25.rank)
  bcast_S64x1x1x25_S64x256x128x25_0_1_2_3 : S64x1x1x25.BroadcastsInDim S64x256x128x25 (![0, 1, 2, 3] : Fin 4 → Fin S64x256x128x25.rank)
  bcast_S_S64x256x128x25 : S_.BroadcastsInDim S64x256x128x25 (![] : Fin 0 → Fin S64x256x128x25.rank)
  reducesTo_S64x1x1x25_S_d0_1_2_3 : S64x1x1x25.ReducesTo [0, 1, 2, 3] S_
  reducesTo_S64x128_S_d0_1 : S64x128.ReducesTo [0, 1] S_
  shapeCasts_S64x128_S64x1x128 : S64x128.ShapeCasts S64x1x128
  bcast_S_S64x1x128 : S_.BroadcastsInDim S64x1x128 (![] : Fin 0 → Fin S64x1x128.rank)
  bcast_S_S_ : S_.BroadcastsInDim S_ (![] : Fin 0 → Fin S_.rank)
  reduceWindows_S64x1x128_S64x1x128_w1s1p0_0_w1s1p0_0_w7s1p3_3 : S64x1x128.ReduceWindows (![1, 1, 7] : Fin 3 → Nat) ![1, 1, 1] ![0, 0, 3] ![0, 0, 3] S64x1x128
  reducesTo_S64x1x128_S_d0_1_2 : S64x1x128.ReducesTo [0, 1, 2] S_
  bcast_S64x1x128_S64x1x128x1_0_1_2 : S64x1x128.BroadcastsInDim S64x1x128x1 (![0, 1, 2] : Fin 3 → Fin S64x1x128x1.rank)
  bcast_S64x1x128x1_S64x256x128x25_0_1_2_3 : S64x1x128x1.BroadcastsInDim S64x256x128x25 (![0, 1, 2, 3] : Fin 4 → Fin S64x256x128x25.rank)
  dot_S8x256_S64x256x153x1_S8x64x153x1_1_1_0_023_n_n_wf : DotDims.WF S8x256 S64x256x153x1 S8x64x153x1 [1] [1] [0] [0, 2, 3] [] []
  dot_S256x8_S64x8x128x1_S256x64x128x1_1_1_0_023_n_n_wf : DotDims.WF S256x8 S64x8x128x1 S256x64x128x1 [1] [1] [0] [0, 2, 3] [] []
  dot_S256x8_S64x8x1x25_S256x64x1x25_1_1_0_023_n_n_wf : DotDims.WF S256x8 S64x8x1x25 S256x64x1x25 [1] [1] [0] [0, 2, 3] [] []
  dot_S64x25_S25x25_S64x25_1_0_0_1_n_n_wf : DotDims.WF S64x25 S25x25 S64x25 [1] [0] [0] [1] [] []

variable [Facts₀]

def dot_S8x256_S64x256x153x1_S8x64x153x1_1_1_0_023_n_n : DotDims S8x256 S64x256x153x1 S8x64x153x1 where
  lhsContracting := [1]
  rhsContracting := [1]
  lhsNonContracting := [0]
  rhsNonContracting := [0, 2, 3]
  lhsBatch := []
  rhsBatch := []
  wf := dot_S8x256_S64x256x153x1_S8x64x153x1_1_1_0_023_n_n_wf
def dot_S256x8_S64x8x128x1_S256x64x128x1_1_1_0_023_n_n : DotDims S256x8 S64x8x128x1 S256x64x128x1 where
  lhsContracting := [1]
  rhsContracting := [1]
  lhsNonContracting := [0]
  rhsNonContracting := [0, 2, 3]
  lhsBatch := []
  rhsBatch := []
  wf := dot_S256x8_S64x8x128x1_S256x64x128x1_1_1_0_023_n_n_wf
def dot_S256x8_S64x8x1x25_S256x64x1x25_1_1_0_023_n_n : DotDims S256x8 S64x8x1x25 S256x64x1x25 where
  lhsContracting := [1]
  rhsContracting := [1]
  lhsNonContracting := [0]
  rhsNonContracting := [0, 2, 3]
  lhsBatch := []
  rhsBatch := []
  wf := dot_S256x8_S64x8x1x25_S256x64x1x25_1_1_0_023_n_n_wf
def dot_S64x25_S25x25_S64x25_1_0_0_1_n_n : DotDims S64x25 S25x25 S64x25 where
  lhsContracting := [1]
  rhsContracting := [0]
  lhsNonContracting := [0]
  rhsNonContracting := [1]
  lhsBatch := []
  rhsBatch := []
  wf := dot_S64x25_S25x25_S64x25_1_0_0_1_n_n_wf

class Facts : Prop extends Facts₀ where

variable [Facts]
-- ==== Proof.MaskScale.lean ====
/-
  Scaling a four-axis array x[n, c, t, v] by a joint mask σ[n, v] and a time mask τ[n, 0, t], each normalised by the
  total of its own mask: the result as ONE function of x, σ and τ, index by index, and the law that lets each
  normalising quotient be folded into its mask before the array is touched.

  With  Ds = max (0 + Σ σ) 1  and  Dt = max ((0 + Σ τ) · k) 1  the result at (n, c, t, v) is
      ((((x · σ[n, v]) · a) / Ds) · τ[n, 0, t] · b) / Dt .
  Both divisors are at least one, hence off zero, so each quotient is the product with the divisor's inverse, and
      ((((x · s) · a) / Ds) · t · b) / Dt  =  (x · (s · (a / Ds))) · (t · (b / Dt))
  is commutativity and associativity of the product of extended reals. It holds at ±∞ as well, whatever the masks
  and the array hold: nothing here asks for a finite entry.
-/
import Idealize.ShloMosaic.PureOps.Ideal.Laws
import Idealize.ShloMosaic.Lib.ValueIdx
import Idealize.ShloMosaic.Lib.IdealHost

noncomputable section

open scoped BigOperators

namespace Cert.MaskScale

open Idealize.ShloMosaic Idealize.ShloMosaic.ValueIdx

/-! ## The shapes -/

/-- The array: samples × channels × time steps × joints. -/
abbrev Arr : Shape := ⟨4, ![64, 256, 128, 25]⟩
/-- The joint mask: samples × joints. -/
abbrev Joint : Shape := ⟨2, ![64, 25]⟩
/-- The time mask: samples × 1 × time steps. -/
abbrev Time : Shape := ⟨3, ![64, 1, 128]⟩
/-- The time mask without its unit axis: samples × time steps. -/
abbrev TimeFlat : Shape := ⟨2, ![64, 128]⟩

/-- The joint mask's index at a sample and a joint. -/
abbrev jointIx (n : Fin 64) (v : Fin 25) : Joint.Idx := ix2 n v
/-- The time mask's index at a sample and a time step. -/
abbrev timeIx (n : Fin 64) (t : Fin 128) : Time.Idx := ix3 n (0 : Fin 1) t
/-- The joint-mask entry an array index reads: its sample and its joint. -/
abbrev jointOf (i : Arr.Idx) : Joint.Idx := jointIx (i 0) (i 3)
/-- The time-mask entry an array index reads: its sample and its time step. -/
abbrev timeOf (i : Arr.Idx) : Time.Idx := timeIx (i 0) (i 2)

/-! ## The two normalising totals -/

/-- The joint mask's total, kept at least one. -/
def jointTotal (σ : Joint.Idx → EReal) : EReal := max (0 + ∑ j, σ j) 1
/-- The time mask's total, counted `k` times (once per channel and joint), kept at least one. -/
def timeTotal (k : EReal) (τ : Time.Idx → EReal) : EReal := max ((0 + ∑ j, τ j) * k) 1

theorem one_le_jointTotal (σ : Joint.Idx → EReal) : 1 ≤ jointTotal σ := le_max_right _ _
theorem one_le_timeTotal (k : EReal) (τ : Time.Idx → EReal) : 1 ≤ timeTotal k τ := le_max_right _ _

/-! ## The result, and its folded form -/

/-- The scaled array: the array times the joint mask, times `a`, over the joint total; that times the time mask,
    times `b`, over the time total. -/
def scaled (a b k : EReal) (x : Arr.Idx → EReal) (σ : Joint.Idx → EReal) (τ : Time.Idx → EReal) : Arr.Idx → EReal :=
  fun i => Ideal.div (Ideal.div (x i * σ (jointOf i) * a) (jointTotal σ) * τ (timeOf i) * b) (timeTotal k τ)

/-- A divisor that is at least one is off zero, and off zero the quotient is the product with the inverse. -/
theorem div_eq_mul_inv_of_one_le {d : EReal} (h : 1 ≤ d) (x : EReal) : Ideal.div x d = x * d⁻¹ := by
  have hd : d ≠ 0 := (lt_of_lt_of_le zero_lt_one h).ne'
  unfold Ideal.div
  rw [if_neg hd]

/-- Folding each quotient into its mask: products of extended reals commute and associate. -/
theorem regroup (x s t a b ds dt : EReal) (hs : 1 ≤ ds) (ht : 1 ≤ dt) :
    Ideal.div (Ideal.div (x * s * a) ds * t * b) dt = x * (s * Ideal.div a ds) * (t * Ideal.div b dt) := by
  simp only [div_eq_mul_inv_of_one_le hs, div_eq_mul_inv_of_one_le ht]
  ac_rfl

/-- The scaled array with each normalising quotient folded into its mask. -/
theorem scaled_eq_folded (a b k : EReal) (x : Arr.Idx → EReal) (σ : Joint.Idx → EReal) (τ : Time.Idx → EReal)
    (i : Arr.Idx) :
    scaled a b k x σ τ i
      = x i * (σ (jointOf i) * Ideal.div a (jointTotal σ)) * (τ (timeOf i) * Ideal.div b (timeTotal k τ)) :=
  regroup _ _ _ _ _ _ _ (one_le_jointTotal σ) (one_le_timeTotal k τ)

/-! ## Unit axes do not change a total -/

/-- A total over samples × 1 × 1 × joints is the total over samples × joints. -/
theorem sum_joint_unit (f : Joint.Idx → EReal) :
    ∑ j : (⟨4, ![64, 1, 1, 25]⟩ : Shape).Idx, f (jointIx (j 0) (j 3)) = ∑ j : Joint.Idx, f j := by
  refine Fintype.sum_bijective (fun j : (⟨4, ![64, 1, 1, 25]⟩ : Shape).Idx => jointIx (j 0) (j 3))
    ⟨?_, ?_⟩ _ _ (fun _ => rfl)
  · intro j j' h
    have h0 : j 0 = j' 0 := congrFun h 0
    have h3 : j 3 = j' 3 := congrFun h 1
    have a1 : (j 1).val < 1 := (j 1).isLt
    have b1 : (j' 1).val < 1 := (j' 1).isLt
    have a2 : (j 2).val < 1 := (j 2).isLt
    have b2 : (j' 2).val < 1 := (j' 2).isLt
    funext e
    match e with
    | ⟨0, _⟩ => exact h0
    | ⟨1, _⟩ => exact Fin.ext (by show (j 1).val = (j' 1).val; omega)
    | ⟨2, _⟩ => exact Fin.ext (by show (j 2).val = (j' 2).val; omega)
    | ⟨3, _⟩ => exact h3
  · intro y
    exact ⟨ix4 (y 0) (0 : Fin 1) (0 : Fin 1) (y 1), (eq_ix2 y).symm⟩

/-- A total over samples × time steps, read through the unit axis, is the total over samples × 1 × time steps. -/
theorem sum_time_flat (g : Time.Idx → EReal) :
    ∑ j : TimeFlat.Idx, g (timeIx (j 0) (j 1)) = ∑ j : Time.Idx, g j := by
  refine Fintype.sum_bijective (fun j : TimeFlat.Idx => timeIx (j 0) (j 1))
    ⟨?_, ?_⟩ _ _ (fun _ => rfl)
  · intro j j' h
    have h0 : j 0 = j' 0 := congrFun h 0
    have h1 : j 1 = j' 1 := congrFun h 2
    funext e
    match e with
    | ⟨0, _⟩ => exact h0
    | ⟨1, _⟩ => exact h1
  · intro y
    have y1 : (y 1).val < 1 := (y 1).isLt
    refine ⟨ix2 (y 0) (y 2), ?_⟩
    funext e
    match e with
    | ⟨0, _⟩ => rfl
    | ⟨1, _⟩ => exact Fin.ext (by show 0 = (y 1).val; omega)
    | ⟨2, _⟩ => rfl

end Cert.MaskScale

end
-- ==== Proof.RefScaled.lean ====
/-
  The reference's result is the scaled array: read at an index, its last stage is the array entry times the joint mask
  entry of the same sample and joint, times 1600, over the joint mask's total kept at least one; that times the time
  mask entry of the same sample and time step, times 52428800, over 6400 times the time mask's total kept at least one.
  The joint mask reaches the array through two unit axes (samples × 1 × 1 × joints), which change neither the entry read
  nor the total; the two float words 0 and 1 are the extended reals zero and one; every other float word stays closed.
-/
import proofs.«113336_j48352741818433_2_alg».proof.Proof.Gen.ReferenceIdeal.Read
import proofs.«113336_j48352741818433_2_alg».proof.Proof.MaskScale

noncomputable section

open scoped BigOperators

namespace Cert.ReferenceIdeal.RefValue

open Cert.ReferenceIdeal Cert.ReferenceIdeal.Read Idealize.ShloMosaic Idealize.ShloMosaic.ValueIdx Cert.MaskScale

/-- Through the two unit axes an array index reads the joint mask at its sample and joint. -/
theorem joint_idx (i : S64x256x128x25.Idx) : idx_main_v94 (idx_main_v95 i) = jointOf i :=
  funext fun a => Fin.ext (by match a with | ⟨0, _⟩ => rfl | ⟨1, _⟩ => rfl)

/-- An index of samples × 1 × 1 × joints reads the joint mask at its sample and joint. -/
theorem joint_idx_unit (j : S64x1x1x25.Idx) : idx_main_v94 j = jointIx (j 0) (j 3) :=
  funext fun a => Fin.ext (by match a with | ⟨0, _⟩ => rfl | ⟨1, _⟩ => rfl)

/-- The unit axes do not change the joint mask's total. -/
theorem sum_joint (f : S64x25.Idx → EReal) : ∑ j : S64x1x1x25.Idx, f (idx_main_v94 j) = ∑ j : Joint.Idx, f j :=
  (Finset.sum_congr rfl fun j _ => congrArg f (joint_idx_unit j)).trans (sum_joint_unit f)

/-- Through the trailing unit axis an array index reads the time mask at its sample and time step. -/
theorem time_idx (i : S64x256x128x25.Idx) : idx_main_v122 (idx_main_v123 i) = timeOf i :=
  funext fun a => Fin.ext (by match a with | ⟨0, _⟩ => rfl | ⟨1, _⟩ => rfl | ⟨2, _⟩ => rfl)

/-- The reference's last stage, as a function of its six live arguments, is the scaled array of the array argument, the
    joint mask stage and the time mask stage. -/
theorem result_eq (x0 : (⟨S64x256x128x25, .f32⟩ : BufTy).Contents (Elt Ideal)) (x1 : (⟨S25x25, .f32⟩ : BufTy).Contents (Elt Ideal))
    (x2 : (⟨S64x25, .f32⟩ : BufTy).Contents (Elt Ideal)) (x3 : (⟨S64x128, .f32⟩ : BufTy).Contents (Elt Ideal))
    (x4 : (⟨S64x25, .f32⟩ : BufTy).Contents (Elt Ideal)) (x5 : (⟨S64x1x128, .f32⟩ : BufTy).Contents (Elt Ideal)) :
    val_main_v128 (F := Ideal) x0 x1 x2 x3 x4 x5
      = scaled (Ideal.ofBits .f32 0x44C80000#32) (Ideal.ofBits .f32 0x4C480000#32) (Ideal.ofBits .f32 0x45C80000#32)
          x0 (val_main_v93 (F := Ideal) x1 x2 x4) (val_main_v118 (F := Ideal) x3 x5) := by
  funext i
  rw [val_main_v128_apply, val_main_v127_apply, val_main_v126_apply, val_main_v125_apply, val_main_v124_apply,
    val_main_v123_apply, val_main_v122_apply, val_main_v102_apply, val_main_v101_apply, val_main_v98_apply,
    val_main_v97_apply, val_main_v96_apply, val_main_v95_apply, val_main_v121_apply, val_main_v120_apply,
    val_main_v119_apply, val_main_v100_apply, val_main_v99_apply]
  simp only [val_main_v94_apply]
  rw [sum_joint (val_main_v93 (F := Ideal) x1 x2 x4), joint_idx, time_idx]
  simp only [val_main_cst_26_apply, val_main_cst_27_apply, val_main_cst_28_apply, val_main_cst_35_apply,
    val_main_cst_36_apply, val_main_cst_37_apply, val_main_cst_38_apply, Ideal.ofBits_def, Ideal.ofBits_zero_f32,
    Ideal.ofBits_one_f32, Ideal.mulf_def, Ideal.hostDivf_def, Ideal.maximumf_def]
  rfl

end Cert.ReferenceIdeal.RefValue

end
-- ==== Proof.KernelGrid.lean ====
/-
  The kernel's grid, as arithmetic: 8 × 32 points; at point (p, q) the array operand and the result are at block
  (p, q, 0, 0) of samples × channels × time steps × joints in blocks of 8 × 8 × 128 × 25, the joint factor at block
  (p, 0) of samples × joints in blocks of 8 × 25, the time factor at block (p, 0) of samples × time steps in blocks of
  8 × 128. Every (sample block, channel block) pair is some point's, so the result's blocks tile its array: index
  (n, c, t, v) lies in the block of the point with p = n / 8 and q = c / 8.
-/
import proofs.«113336_j48352741818433_2_alg».proof.Proof.Gen.KernelIdeal.Value

set_option maxRecDepth 16384

noncomputable section

namespace Cert.KernelIdeal.Grid

open Cert.KernelIdeal Cert.KernelIdeal.Gen Idealize.ShloMosaic Idealize.ShloMosaic.TcCoe Idealize.SL.Sem

theorem zero4 : (![0, 0, 0, 0] : Fin 4 → Nat) = fun _ => 0 := funext fun a => by fin_cases a <;> rfl
theorem zero2 : (![0, 0] : Fin 2 → Nat) = fun _ => 0 := funext fun a => by fin_cases a <;> rfl

/-! ## The four windows' index maps, over the grid -/

/-- At every point the array operand's block index is the result's; the two factor operands' blocks follow the result's
    sample block and sit at 0 on their other axis; the result's block index is 0 on time steps and joints, and its
    sample and channel block indices stay in range. -/
theorem index_facts : ∀ t : Fin cfg0.N,
    win0_0.index t (0 : Fin 4) = win0_3.index t (0 : Fin 4)
    ∧ win0_0.index t (1 : Fin 4) = win0_3.index t (1 : Fin 4)
    ∧ win0_0.index t (2 : Fin 4) = win0_3.index t (2 : Fin 4)
    ∧ win0_0.index t (3 : Fin 4) = win0_3.index t (3 : Fin 4)
    ∧ win0_1.index t (0 : Fin 2) = win0_3.index t (0 : Fin 4)
    ∧ win0_1.index t (1 : Fin 2) = 0
    ∧ win0_2.index t (0 : Fin 2) = win0_3.index t (0 : Fin 4)
    ∧ win0_2.index t (1 : Fin 2) = 0
    ∧ win0_3.index t (2 : Fin 4) = 0
    ∧ win0_3.index t (3 : Fin 4) = 0 :=
  (by decide +kernel : ∀ t : Fin grid0.N, _)

/-- Every (sample block, channel block) pair is some point's. -/
theorem index_onto : ∀ (q0 : Fin 8) (q1 : Fin 32), ∃ t : Fin cfg0.N, win0_3.index t = ![q0.val, q1.val, 0, 0] :=
  (by decide +kernel : ∀ (q0 : Fin 8) (q1 : Fin 32), ∃ t : Fin grid0.N, win0_3.index t = ![q0.val, q1.val, 0, 0])

/-! ## The blocks tile the array -/

/-- An index of the array is in point `t`'s block iff each coordinate is in the block's range on its axis. -/
theorem mem_blk (t : Fin cfg0.N) (i : S64x256x128x25.Idx) :
    i ∈ ((cfg0.win 3).blk t).view.set ↔ ∀ a : Fin 4, win0_3.index t a * S8x8x128x25.size a ≤ (i a).val
      ∧ (i a).val < win0_3.index t a * S8x8x128x25.size a + S8x8x128x25.size a := by
  show i ∈ ((View.whole main_v45).slice (win0_3.rect t)).set ↔ _
  rw [View.set_slice_whole, Rect.mem_set_unit]
  exact Iff.rfl

/-- Every index of the array is in the block of the point of its sample block and channel block. -/
theorem cover (i : S64x256x128x25.Idx) :
    ∃ t : Fin cfg0.N, (cfg0.win 3).flush t = true ∧ i ∈ ((cfg0.win 3).blk t).view.set := by
  have hi0 : (i 0).val < 64 := (i 0).isLt
  have hi1 : (i 1).val < 256 := (i 1).isLt
  have hi2 : (i 2).val < 128 := (i 2).isLt
  have hi3 : (i 3).val < 25 := (i 3).isLt
  obtain ⟨t, ht⟩ := index_onto ⟨(i 0).val / 8, by omega⟩ ⟨(i 1).val / 8, by omega⟩
  have q0 : win0_3.index t (0 : Fin 4) = (i 0).val / 8 := congrFun ht 0
  have q1 : win0_3.index t (1 : Fin 4) = (i 1).val / 8 := congrFun ht 1
  have q2 : win0_3.index t (2 : Fin 4) = 0 := congrFun ht 2
  have q3 : win0_3.index t (3 : Fin 4) = 0 := congrFun ht 3
  refine ⟨t, flush0_3 t, ?_⟩
  rw [mem_blk]
  intro a
  match a with
  | ⟨0, _⟩ => show win0_3.index t (0 : Fin 4) * 8 ≤ (i 0).val ∧ (i 0).val < win0_3.index t (0 : Fin 4) * 8 + 8; omega
  | ⟨1, _⟩ => show win0_3.index t (1 : Fin 4) * 8 ≤ (i 1).val ∧ (i 1).val < win0_3.index t (1 : Fin 4) * 8 + 8; omega
  | ⟨2, _⟩ => show win0_3.index t (2 : Fin 4) * 128 ≤ (i 2).val ∧ (i 2).val < win0_3.index t (2 : Fin 4) * 128 + 128; omega
  | ⟨3, _⟩ => show win0_3.index t (3 : Fin 4) * 25 ≤ (i 3).val ∧ (i 3).val < win0_3.index t (3 : Fin 4) * 25 + 25; omega

end Cert.KernelIdeal.Grid

end
-- ==== Proof.KernelBlocks.lean ====
/-
  What the kernel's grid leaves in its result array: the array argument times the joint factor of the same sample and
  joint, times the time factor of the same sample and time step, at every index.

  At point (p, q) the body multiplies the array operand's block by the joint factor's rows 8p … 8p+7 spread over
  channels and time steps, then by the time factor's rows 8p … 8p+7 spread over channels and joints: entry (a, b, t, v)
  of the block is block(a, b, t, v) · joint rows(a, v) · time rows(a, t). The array operand's block is the result's own
  block and both factor blocks start at sample 8p, so what a point writes back is its block of ONE whole-array product;
  the blocks tile the array (Proof/KernelGrid.lean), so the array ends as that product.
-/
import proofs.«113336_j48352741818433_2_alg».proof.Proof.KernelGrid

set_option maxRecDepth 16384

noncomputable section

namespace Cert.KernelIdeal.ArrValue

open Cert.KernelIdeal Cert.KernelIdeal.Gen Cert.KernelIdeal.Grid Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## The whole-array product -/

/-- The joint factor entry an array index reads: its sample and its joint. -/
abbrev jointRow (i : S64x256x128x25.Idx) : S64x25.Idx := fun a => match a with
  | ⟨0, _⟩ => ⟨(i 0).val, (i 0).isLt⟩
  | ⟨1, _⟩ => ⟨(i 3).val, (i 3).isLt⟩

/-- The time factor entry an array index reads: its sample and its time step. -/
abbrev timeRow (i : S64x256x128x25.Idx) : S64x128.Idx := fun a => match a with
  | ⟨0, _⟩ => ⟨(i 0).val, (i 0).isLt⟩
  | ⟨1, _⟩ => ⟨(i 2).val, (i 2).isLt⟩

/-- The array times its joint factor times its time factor, index by index. -/
abbrev product (a0 : S64x256x128x25.Idx → Elt F .f32) (a1 : S64x25.Idx → Elt F .f32) (a2 : S64x128.Idx → Elt F .f32) :
    S64x256x128x25.Idx → Elt F .f32 :=
  fun i => FloatOps.mulf (FloatOps.mulf (a0 i) (a1 (jointRow i))) (a2 (timeRow i))

/-! ## A block read is the array read where the block sits -/

/-- The result's block at a point, read at a block index, is the array at the index under it. -/
theorem read_result (t : Fin cfg0.N) (G : S64x256x128x25.Idx → Elt F .f32) (j : S8x8x128x25.Idx) :
    ((cfg0.win 3).blk t).view.read (Elt F) G j = G (((cfg0.win 3).blk t).view.emb j) := rfl

/-- The array operand's block at a point is the array argument as the grid finds it, read where the block sits. -/
theorem read_array (c : Dev nD) (t : Fin cfg0.N) (y : S8x8x128x25.Idx) :
    iblk m c 0 t y = V m c main_arg0 (((cfg0.win 0).blk t).view.emb y) := rfl

/-- The joint factor operand's block at a point is the joint factor array read where the block sits. -/
theorem read_joint (c : Dev nD) (t : Fin cfg0.N) (y : S8x25.Idx) :
    iblk m c 1 t y = V m c main_v21 (((cfg0.win 1).blk t).view.emb y) := rfl

/-- The time factor operand's block at a point is the time factor array read where the block sits. -/
theorem read_time (c : Dev nD) (t : Fin cfg0.N) (y : S8x128.Idx) :
    iblk m c 2 t y = V m c main_v44 (((cfg0.win 2).blk t).view.emb y) := rfl

/-! ## Where the three operand blocks sit, against the result's block -/

/-- The array operand's block sits on the result's block. -/
theorem emb_array (t : Fin cfg0.N) (j : S8x8x128x25.Idx) :
    ((cfg0.win 0).blk t).view.emb (Value.ix3_0 j) = ((cfg0.win 3).blk t).view.emb j := by
  obtain ⟨e00, e01, e02, e03, e10, e11, e20, e21, e32, e33⟩ := index_facts t
  funext a; apply Fin.ext
  match a with
  | ⟨0, _⟩ => show win0_0.index t (0 : Fin 4) * 8 + 1 * (j 0).val = win0_3.index t (0 : Fin 4) * 8 + 1 * (j 0).val; omega
  | ⟨1, _⟩ => show win0_0.index t (1 : Fin 4) * 8 + 1 * (j 1).val = win0_3.index t (1 : Fin 4) * 8 + 1 * (j 1).val; omega
  | ⟨2, _⟩ => show win0_0.index t (2 : Fin 4) * 128 + 1 * (j 2).val = win0_3.index t (2 : Fin 4) * 128 + 1 * (j 2).val; omega
  | ⟨3, _⟩ => show win0_0.index t (3 : Fin 4) * 25 + 1 * (j 3).val = win0_3.index t (3 : Fin 4) * 25 + 1 * (j 3).val; omega

/-- The joint factor's block sits on the samples and joints of the result's block. -/
theorem emb_joint (t : Fin cfg0.N) (j : S8x8x128x25.Idx) :
    ((cfg0.win 1).blk t).view.emb (Value.ix3_1 j) = jointRow (((cfg0.win 3).blk t).view.emb j) := by
  obtain ⟨e00, e01, e02, e03, e10, e11, e20, e21, e32, e33⟩ := index_facts t
  funext a; apply Fin.ext
  match a with
  | ⟨0, _⟩ => show win0_1.index t (0 : Fin 2) * 8 + 1 * (j 0).val = win0_3.index t (0 : Fin 4) * 8 + 1 * (j 0).val; omega
  | ⟨1, _⟩ => show win0_1.index t (1 : Fin 2) * 25 + 1 * (j 3).val = win0_3.index t (3 : Fin 4) * 25 + 1 * (j 3).val; omega

/-- The time factor's block sits on the samples and time steps of the result's block. -/
theorem emb_time (t : Fin cfg0.N) (j : S8x8x128x25.Idx) :
    ((cfg0.win 2).blk t).view.emb (Value.ix3_2 j) = timeRow (((cfg0.win 3).blk t).view.emb j) := by
  obtain ⟨e00, e01, e02, e03, e10, e11, e20, e21, e32, e33⟩ := index_facts t
  funext a; apply Fin.ext
  match a with
  | ⟨0, _⟩ => show win0_2.index t (0 : Fin 2) * 8 + 1 * (j 0).val = win0_3.index t (0 : Fin 4) * 8 + 1 * (j 0).val; omega
  | ⟨1, _⟩ => show win0_2.index t (1 : Fin 2) * 128 + 1 * (j 2).val = win0_3.index t (2 : Fin 4) * 128 + 1 * (j 2).val; omega

/-! ## What a point writes back -/

/-- What point `t` writes back is block `t` of the whole-array product of the arrays the grid finds. -/
theorem flushed_eq (c : Dev nD) (t : Fin cfg0.N) :
    (dats m 0 c).flushed 3 t
      = ((cfg0.win 3).blk t).view.read (Elt F) (product (V m c main_arg0) (V m c main_v21) (V m c main_v44)) := by
  rw [Value.flushed3]
  unfold out0_3
  simp only [View.ld_unit_zero (S := S8x25) zero2, View.ld_unit_zero (S := S8x128) zero2,
    View.ld_unit_zero (S := S8x8x128x25) zero4]
  funext j
  show View.canon ([⟨r0_2, k0_pay1 (iblk m c 1 t) (iblk m c 2 t) (iblk m c 0 t)⟩] : List (View.Piece (Elt F) S8x8x128x25 .f32)) j = _
  refine (Value.canon3_eq (iblk m c 0 t) (iblk m c 1 t) (iblk m c 2 t) j).trans ?_
  rw [read_result]
  show FloatOps.mulf (FloatOps.mulf (iblk m c 0 t (Value.ix3_0 j)) (iblk m c 1 t (Value.ix3_1 j))) (iblk m c 2 t (Value.ix3_2 j)) = _
  rw [read_array, read_joint, read_time, emb_array, emb_joint, emb_time]

/-! ## The array after the run -/

/-- After the grid the result array is the whole-array product of the array argument and the two factor arrays the
    grid found. -/
theorem final (c : Dev nD) :
    (dats m 0 c).arrAt 3 cfg0.N
      = product (m ((c : Thread nD τ).loc main_arg0)) (V m c main_v21) (V m c main_v44) :=
  ((dats m 0 c).arrAt_eq_of_cover 3 (product (V m c main_arg0) (V m c main_v21) (V m c main_v44))
    (fun t _ => flushed_eq m c t) cover).trans (by rw [V_main_arg0])

/-- The kernel's run re-posted: the result array at the whole-array product, the arguments unchanged. -/
theorem run : θ_run defs (onTc (τ := τ) (main (F := F))) ⟨m, fun _ => 0, ρ⟩ fun r => ∀ c : Dev nD,
      r.2.mem ((c : Thread nD τ).loc main_v45)
        = product (m ((c : Thread nD τ).loc main_arg0)) (V m c main_v21) (V m c main_v44)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨(h c).1.trans (final m c), (h c).2⟩) (Value.run_blocks m ρ)

end Cert.KernelIdeal.ArrValue

end
-- ==== Proof.KernelHost.lean ====
/-
  The two factor arrays the kernel's grid is launched with, as functions of the two masks, and read at an index.

  Before the grid the kernel's host part builds the joint mask σ (samples × joints) and the time mask τ
  (samples × 1 × time steps) by the reference's own operations on the same arguments, so they ARE the reference's two
  mask stages. It then folds each normalising quotient into its mask:
      joint factor[n, v] = σ[n, v] · (1600 / max (0 + Σ σ) 1),
      time factor[n, t]  = τ[n, 0, t] · (52428800 / max ((0 + Σ τ) · 6400) 1),
  the time mask being flattened to samples × time steps first, which changes neither the entry read nor its total.
-/
import proofs.«113336_j48352741818433_2_alg».proof.Proof.Gen.KernelIdeal.Frame
import proofs.«113336_j48352741818433_2_alg».proof.Proof.Gen.ReferenceIdeal.Read
import proofs.«113336_j48352741818433_2_alg».proof.Proof.MaskScale
import Idealize.ShloMosaic.Lib.StableHlo.Run
import Idealize.ShloMosaic.Lib.Pipeline.Value
import Idealize.ShloMosaic.PureOps.Ideal.Laws

set_option maxRecDepth 16384

noncomputable section

open scoped BigOperators

namespace Cert.KernelIdeal.HostValue

open Cert.KernelIdeal Cert.KernelIdeal.Gen Idealize.ShloMosaic Idealize.ShloMosaic.TcCoe Idealize.SL.Sem
open Idealize.ShloMosaic.StableHlo Idealize.ShloMosaic.ValueIdx Cert.MaskScale

/-! ## The factor arrays as functions of the masks -/

/-- The joint factor array of a joint mask: the mask times 1600 over its total kept at least one. -/
def jointFactor {F : FTy → Type} [FloatOps F] (σ : (⟨S64x25, .f32⟩ : BufTy).Contents (Elt F)) :
    (⟨S64x25, .f32⟩ : BufTy).Contents (Elt F) :=
  mulf σ (broadcastInDim S64x25 ![] bcast_S_S64x25 (Host.divf (constant S_ .f32 0x44C80000#32)
    (maximumf (Host.reduceAdd σ (constant S_ .f32 0x00000000#32) reducesTo_S64x25_S_d0_1 h_S_) (constant S_ .f32 0x3F800000#32))))

/-- The time mask flattened to samples × time steps. -/
def flatTime {F : FTy → Type} [FloatOps F] (τ : (⟨S64x1x128, .f32⟩ : BufTy).Contents (Elt F)) :
    (⟨S64x128, .f32⟩ : BufTy).Contents (Elt F) :=
  shapeCast _ τ shapeCasts_S64x1x128_S64x128

/-- The time factor array of a flattened time mask: the mask times 52428800 over 6400 times its total, kept at least one. -/
def timeFactor {F : FTy → Type} [FloatOps F] (τ' : (⟨S64x128, .f32⟩ : BufTy).Contents (Elt F)) :
    (⟨S64x128, .f32⟩ : BufTy).Contents (Elt F) :=
  mulf τ' (broadcastInDim S64x128 ![] bcast_S_S64x128 (Host.divf (constant S_ .f32 0x4C480000#32)
    (maximumf (mulf (Host.reduceAdd τ' (constant S_ .f32 0x00000000#32) reducesTo_S64x128_S_d0_1 h_S_) (constant S_ .f32 0x45C80000#32))
      (constant S_ .f32 0x3F800000#32))))

variable (m : (ℓ : Loc nD τ sig) → Buf (Elt Ideal) ℓ)

/-- The reference's joint mask stage of the kernel's launch arguments. -/
abbrev jointMask (c : Dev nD) : (⟨S64x25, .f32⟩ : BufTy).Contents (Elt Ideal) :=
  Cert.ReferenceIdeal.Read.val_main_v93 (F := Ideal) (m ((c : Thread nD τ).loc main_arg1)) (m ((c : Thread nD τ).loc main_arg2))
    (m ((c : Thread nD τ).loc main_arg4))

/-- The reference's time mask stage of the kernel's launch arguments. -/
abbrev timeMask (c : Dev nD) : (⟨S64x1x128, .f32⟩ : BufTy).Contents (Elt Ideal) :=
  Cert.ReferenceIdeal.Read.val_main_v118 (F := Ideal) (m ((c : Thread nD τ).loc main_arg3)) (m ((c : Thread nD τ).loc main_arg5))

/-- The grid finds, as its joint factor operand, the joint factor array of the reference's joint mask stage: the host
    part's operations up to there are the reference's, the matrix product's precision hint apart, which an exact
    product does not read. -/
theorem V_joint (c : Dev nD) : V (F := Ideal) m c main_v21 = jointFactor (F := Ideal) (jointMask m c) := by
  dsimp only [Gen.V, Gen.hostOps0]
  after_results_simp
  rfl

/-- The grid finds, as its time factor operand, the time factor array of the reference's time mask stage, flattened. -/
theorem V_time (c : Dev nD) : V (F := Ideal) m c main_v44 = timeFactor (F := Ideal) (flatTime (F := Ideal) (timeMask m c)) := by
  dsimp only [Gen.V, Gen.hostOps0]
  after_results_simp
  rfl

/-! ## The factor arrays read at an index -/

/-- The host's sum of the whole joint mask from the zero word is zero plus the mask's total. -/
theorem total_joint (σ : (⟨S64x25, .f32⟩ : BufTy).Contents (Elt Ideal)) (i : S_.Idx) :
    Host.reduceAdd σ (constant (F := Ideal) S_ .f32 0x00000000#32) reducesTo_S64x25_S_d0_1 h_S_ i
      = 0 + ∑ j : Joint.Idx, σ j := by
  simp only [Host.reduceAdd, Ideal.hostReduceAdd_def]
  refine (Ideal.hostReduceAdd_total reducesTo_S64x25_S_d0_1 (fun b => b.elim0) σ _ i).trans ?_
  rw [constant_apply, Ideal.ofBits_zero_f32]

/-- The joint factor at a sample and joint: the mask entry times 1600 over the mask's total kept at least one. -/
theorem jointFactor_apply (σ : (⟨S64x25, .f32⟩ : BufTy).Contents (Elt Ideal)) (j : S64x25.Idx) :
    jointFactor (F := Ideal) σ j = σ j * Ideal.div (Ideal.ofBits .f32 0x44C80000#32) (jointTotal σ) := by
  unfold jointFactor
  rw [mulf_apply, broadcastInDim_apply _ bcast_S_S64x25 _ j (fun a => a.elim0) (fun a => a.elim0)]
  show σ j * Ideal.div (Ideal.ofBits .f32 0x44C80000#32)
      (max (Host.reduceAdd σ (constant (F := Ideal) S_ .f32 0x00000000#32) reducesTo_S64x25_S_d0_1 h_S_ (fun a => a.elim0))
        (Ideal.ofBits .f32 0x3F800000#32)) = _
  rw [total_joint, Ideal.ofBits_one_f32]
  rfl

/-- The flattened time mask at a sample and time step is the time mask there, through its unit axis. -/
theorem flatTime_apply (τ : (⟨S64x1x128, .f32⟩ : BufTy).Contents (Elt Ideal)) (j : S64x128.Idx) :
    flatTime (F := Ideal) τ j = τ (timeIx (j 0) (j 1)) := by
  unfold flatTime
  have h0 : (j 0).val < 64 := (j 0).isLt
  have h1 : (j 1).val < 128 := (j 1).isLt
  exact shapeCast_apply τ shapeCasts_S64x1x128_S64x128 j (timeIx (j 0) (j 1))
    (by rewrite [Shape.rowMajor_val_three, Shape.rowMajor_val_two]
        show ((j 0).val * 1 + 0) * 128 + (j 1).val = (j 0).val * 128 + (j 1).val
        omega)

/-- The host's sum of the whole flattened time mask from the zero word is zero plus the time mask's total. -/
theorem total_time (τ : (⟨S64x1x128, .f32⟩ : BufTy).Contents (Elt Ideal)) (i : S_.Idx) :
    Host.reduceAdd (flatTime (F := Ideal) τ) (constant (F := Ideal) S_ .f32 0x00000000#32) reducesTo_S64x128_S_d0_1 h_S_ i
      = 0 + ∑ j : Time.Idx, τ j := by
  simp only [Host.reduceAdd, Ideal.hostReduceAdd_def]
  refine (Ideal.hostReduceAdd_total reducesTo_S64x128_S_d0_1 (fun b => b.elim0) (flatTime (F := Ideal) τ) _ i).trans ?_
  rw [constant_apply, Ideal.ofBits_zero_f32]
  exact congrArg (0 + ·) ((Finset.sum_congr rfl fun j _ => flatTime_apply τ j).trans (sum_time_flat τ))

/-- The time factor at a sample and time step: the mask entry times 52428800 over 6400 times the mask's total, kept at
    least one. -/
theorem timeFactor_apply (τ : (⟨S64x1x128, .f32⟩ : BufTy).Contents (Elt Ideal)) (j : S64x128.Idx) :
    timeFactor (F := Ideal) (flatTime (F := Ideal) τ) j
      = τ (timeIx (j 0) (j 1))
        * Ideal.div (Ideal.ofBits .f32 0x4C480000#32) (timeTotal (Ideal.ofBits .f32 0x45C80000#32) τ) := by
  unfold timeFactor
  rw [mulf_apply, broadcastInDim_apply _ bcast_S_S64x128 _ j (fun a => a.elim0) (fun a => a.elim0)]
  show flatTime (F := Ideal) τ j * Ideal.div (Ideal.ofBits .f32 0x4C480000#32)
      (max (Host.reduceAdd (flatTime (F := Ideal) τ) (constant (F := Ideal) S_ .f32 0x00000000#32) reducesTo_S64x128_S_d0_1 h_S_
          (fun a => a.elim0) * Ideal.ofBits .f32 0x45C80000#32)
        (Ideal.ofBits .f32 0x3F800000#32)) = _
  rw [flatTime_apply, total_time, Ideal.ofBits_one_f32]
  rfl

end Cert.KernelIdeal.HostValue

end
-- ==== Proof.KernelScaled.lean ====
/-
  The kernel's result is the scaled array: the whole-array product the grid leaves — the array times its joint factor
  times its time factor — with each factor read at an index as its mask entry times its normalising quotient, is the
  scaled array's folded form, hence the scaled array.
-/
import proofs.«113336_j48352741818433_2_alg».proof.Proof.KernelBlocks
import proofs.«113336_j48352741818433_2_alg».proof.Proof.KernelHost

set_option maxRecDepth 16384

noncomputable section

namespace Cert.KernelIdeal.Scaled

open Cert.KernelIdeal Cert.KernelIdeal.Gen Idealize.ShloMosaic Idealize.ShloMosaic.TcCoe Idealize.SL.Sem
open Idealize.ShloMosaic.ValueIdx Cert.MaskScale Cert.KernelIdeal.HostValue Cert.KernelIdeal.ArrValue

variable (m : (ℓ : Loc nD τ sig) → Buf (Elt Ideal) ℓ) (ρ : Dev nD → PrngReg)

/-- The joint factor entry an array index reads is at the joint mask entry it reads. -/
theorem jointRow_eq (i : S64x256x128x25.Idx) : jointRow i = jointOf i :=
  funext fun a => Fin.ext (by match a with | ⟨0, _⟩ => rfl | ⟨1, _⟩ => rfl)

/-- The time factor entry an array index reads is, through the unit axis, at the time mask entry it reads. -/
theorem timeRow_eq (i : S64x256x128x25.Idx) : timeIx ((timeRow i) 0) ((timeRow i) 1) = timeOf i :=
  funext fun a => Fin.ext (by match a with | ⟨0, _⟩ => rfl | ⟨1, _⟩ => rfl | ⟨2, _⟩ => rfl)

/-- The whole-array product at an index, on the extended reals. -/
theorem product_apply (a0 : S64x256x128x25.Idx → EReal) (a1 : S64x25.Idx → EReal) (a2 : S64x128.Idx → EReal)
    (i : S64x256x128x25.Idx) :
    product (F := Ideal) a0 a1 a2 i = a0 i * a1 (jointRow i) * a2 (timeRow i) := rfl

/-- The whole-array product of the array argument and the two factor arrays the grid finds is the scaled array of the
    array argument and the reference's two mask stages of the kernel's arguments. -/
theorem product_eq_scaled (c : Dev nD) :
    product (F := Ideal) (m ((c : Thread nD τ).loc main_arg0)) (V (F := Ideal) m c main_v21) (V (F := Ideal) m c main_v44)
      = scaled (Ideal.ofBits .f32 0x44C80000#32) (Ideal.ofBits .f32 0x4C480000#32) (Ideal.ofBits .f32 0x45C80000#32)
          (m ((c : Thread nD τ).loc main_arg0)) (jointMask m c) (timeMask m c) := by
  rw [V_joint, V_time]
  funext i
  rw [scaled_eq_folded]
  rw [product_apply, jointFactor_apply, timeFactor_apply, jointRow_eq, timeRow_eq]

/-- The kernel's run with its result array at the scaled array, the arguments unchanged. -/
theorem run : θ_run defs (onTc (τ := τ) (main (F := Ideal))) ⟨m, fun _ => 0, ρ⟩ fun r => ∀ c : Dev nD,
      r.2.mem ((c : Thread nD τ).loc main_v45)
        = scaled (Ideal.ofBits .f32 0x44C80000#32) (Ideal.ofBits .f32 0x4C480000#32) (Ideal.ofBits .f32 0x45C80000#32)
            (m ((c : Thread nD τ).loc main_arg0)) (jointMask m c) (timeMask m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨(h c).1.trans (product_eq_scaled m c), (h c).2⟩) (ArrValue.run (F := Ideal) m ρ)

end Cert.KernelIdeal.Scaled

end
-- ==== Proof.lean ====
/-
  The kernel scales a samples × channels × time steps × joints array by a per-(sample, joint) keep factor and a
  per-(sample, time step) keep factor, each a 0/1 mask times a normalising quotient; the reference multiplies by the
  masks and divides by the normalising totals one after the other. Both build the two masks by the same operations on
  the same arguments. At the extended reals both results are ONE function of the array and the two masks
  (Proof/MaskScale.lean, `scaled`):
      ((((x · σ[n, v]) · 1600) / Ds) · τ[n, 0, t] · 52428800) / Dt,   Ds = max (0 + Σ σ) 1,  Dt = max ((0 + Σ τ) · 6400) 1.
  The reference is that function stage by stage (Proof/RefScaled.lean). The kernel's grid leaves the array times the
  two factor arrays, block by block over its 8 × 32 points (Proof/KernelBlocks.lean); each factor is its mask times
  a quotient by a divisor that is at least one (Proof/KernelHost.lean), and folding the quotients into the masks is
  commutativity and associativity of the product, valid at ±∞ too (Proof/KernelScaled.lean). The inputs' finiteness is
  never used. The three frames are the generated ones (the reference's is its generated run with the result dropped),
  and the idealization rewrote nothing, so `preserves` asks nothing.
-/
import proofs.«113336_j48352741818433_2_alg».proof.Defs
import proofs.«113336_j48352741818433_2_alg».proof.Proof.Gen.Kernel
import proofs.«113336_j48352741818433_2_alg».proof.Proof.Gen.Kernel.Skeleton
import proofs.«113336_j48352741818433_2_alg».proof.Proof.Gen.Kernel.Launch
import proofs.«113336_j48352741818433_2_alg».proof.Proof.Gen.Kernel.Points
import proofs.«113336_j48352741818433_2_alg».proof.Proof.Gen.Kernel.Frame
import proofs.«113336_j48352741818433_2_alg».proof.Proof.Gen.KernelIdeal
import proofs.«113336_j48352741818433_2_alg».proof.Proof.Gen.KernelIdeal.Skeleton
import proofs.«113336_j48352741818433_2_alg».proof.Proof.Gen.KernelIdeal.Launch
import proofs.«113336_j48352741818433_2_alg».proof.Proof.Gen.KernelIdeal.Points
import proofs.«113336_j48352741818433_2_alg».proof.Proof.Gen.KernelIdeal.Frame
import proofs.«113336_j48352741818433_2_alg».proof.Proof.Gen.ReferenceIdeal
import proofs.«113336_j48352741818433_2_alg».proof.Proof.Gen.Pre_finite_inputs
import proofs.«113336_j48352741818433_2_alg».proof.Proof.Gen.KernelIdeal.Value
import proofs.«113336_j48352741818433_2_alg».proof.Proof.Gen.ReferenceIdeal.Run
import proofs.«113336_j48352741818433_2_alg».proof.Proof.Gen.ReferenceIdeal.Read
import proofs.«113336_j48352741818433_2_alg».proof.Proof.RefScaled
import proofs.«113336_j48352741818433_2_alg».proof.Proof.KernelScaled
import Idealize.ShloMosaic.Adequacy
import Idealize.ShloMosaic.Init

noncomputable section

namespace Cert.Proof

open Idealize.ShloMosaic Idealize.ShloMosaic.TcCoe Idealize.SL.Sem

/-- The word-level kernel's frame: generated whole. -/
theorem frame_kernel : Cert.frame_Kernel := fun m ρ _ => Cert.Kernel.Gen.frame m ρ

/-- The idealized kernel's frame: generated whole. -/
theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the scaled array of the array argument and the two
    masks of the (same) arguments. -/
theorem algebraic : Cert.algebraic_KernelIdeal_ReferenceIdeal := by
  intro m ρ m' ρ' _ hagree
  refine ⟨_, Cert.KernelIdeal.Scaled.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, -⟩ := hagree c
  rw [Cert.ReferenceIdeal.Read.val_main_v128_eq, Cert.ReferenceIdeal.RefValue.result_eq, h0, h1, h2, h3, h4, h5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
